-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32x1 .f32) (main_arg6 : FVec F S32x1 .f32) (main_arg7 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x32 .f32) (main_arg3 : FVec F S64x32 .f32) (main_arg4 : FVec F S32 .f32) (main_arg5 : FVec F S32x1 .f32) (main_arg6 : FVec F S32x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S1x1 : Shape := ⟨2, ![1, 1]⟩
abbrev S5000x1 : Shape := ⟨2, ![5000, 1]⟩

abbrev nBuf : Space → Nat
  | .hbm => 68
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x1, .f32⟩
  | .hbm, ⟨6, _⟩ => ⟨S32x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x32, .f32⟩
  | .hbm, ⟨39, _⟩ => ⟨S100000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x32, .f32⟩
  | .hbm, ⟨65, _⟩ => ⟨S100000x32, .f32⟩
  | .hbm, ⟨66, _⟩ => ⟨S1x1, .f32⟩
  | .hbm, ⟨67, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S64x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x1, .f32⟩
  | .local _ .vmem, ⟨14, _⟩ => ⟨S32x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x1, .f32⟩
  | .hbm, ⟨6, _⟩ => ⟨S32x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x32, .f32⟩
  | .hbm, ⟨39, _⟩ => ⟨S100000x32, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S_, .f32⟩
  | .hbm, ⟨45, _⟩ => ⟨S100000x32, .f32⟩
  | .hbm, ⟨46, _⟩ => ⟨S100000x32, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x32, .f32⟩
  | .hbm, ⟨72, _⟩ => ⟨S100000x32, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S1x1, .f32⟩
  | .hbm, ⟨77, _⟩ => ⟨S100000x1, .f32⟩
  | .hbm, ⟨78, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Aggregate.lean ====
/-
  Mean aggregation over incoming edges, as one function of a node-feature array and the edge list.

  An edge list is a 2 x 1600000 array of node numbers: row 0 holds each edge's source node, row 1 its target node.
  For a feature array `y` (one row per node) the aggregate at node `v` is the sum of `y[src e]` over the edges `e`
  whose target is `v`, divided by `max 1 (number of such edges)`.  A negative source number is first wrapped by adding
  the node count, as array indexing does.  Both programs compute this with the same chain of host operations
  (a gather by the source row, a scatter-add by the target row, a scatter-add of ones for the edge counts, a clamp
  from below by one, a division); the chain is kept here as one opaque function and never opened: the two programs
  are compared by showing they feed it equal arrays.
-/
import proofs.«140667_j16295105921228_1_alg».proof.KernelIdeal

noncomputable section

namespace Cert.Sage

open Idealize.ShloMosaic Cert.KernelIdeal Cert.KernelIdeal.Facts₀

variable {F : FTy → Type} [FloatOps F] [Cert.KernelIdeal.Facts₀]

/-- Row 0 of the edge list: the source node of every edge. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the target node of every edge. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The gather's start indices: the source numbers, a negative one wrapped by the node count, as a column. -/
def srcIndex (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The scatter's indices: the target numbers as a column. -/
def dstIndex (d : (⟨S1600000, .i32⟩ : BufTy).Contents (Elt F)) : (⟨S1600000x1, .i32⟩ : BufTy).Contents (Elt F) :=
  broadcastInDim S1600000x1 ![0] bcast_S1600000_S1600000x1_0 d

/-- The number of incoming edges of every node, clamped from below by one. -/
def degree (d : (⟨S1600000, .i32⟩ : BufTy).Contents (Elt F)) : (⟨S100000, .f32⟩ : BufTy).Contents (Elt F) :=
  maximumf (broadcastInDim S100000 ![] bcast_S_S100000 (id (constant S_ .f32 0x3F800000#32)))
    (Host.scatterAdd scatter_S100000_S1600000x1_S1600000_n_0_0_1 (broadcastInDim S100000 ![] bcast_S_S100000 (constant S_ .f32 0x00000000#32))
      (dstIndex d) (broadcastInDim S1600000 ![] bcast_S_S1600000 (constant S_ .f32 0x3F800000#32)))

/-- Mean over incoming edges of 64-wide node features, from the two rows of the edge list. -/
def meanIn64 (y : (⟨S100000x64, .f32⟩ : BufTy).Contents (Elt F)) (s d : (⟨S1600000, .i32⟩ : BufTy).Contents (Elt F)) :
    (⟨S100000x64, .f32⟩ : BufTy).Contents (Elt F) :=
  Host.divf
    (Host.scatterAdd scatter_S100000x64_S1600000x1_S1600000x64_1_0_0_1 (broadcastInDim S100000x64 ![] bcast_S_S100000x64 (constant S_ .f32 0x00000000#32))
      (dstIndex d) (Host.gather gather_S100000x64_S1600000x1_S1600000x64_1_0_n_n_0_1_164 y (srcIndex s)))
    (broadcastInDim S100000x64 ![0, 1] bcast_S100000x1_S100000x64_0_1 (broadcastInDim S100000x1 ![0] bcast_S100000_S100000x1_0 (degree d)))

/-- Mean over incoming edges of 32-wide node features, from the two rows of the edge list. -/
def meanIn32 (y : (⟨S100000x32, .f32⟩ : BufTy).Contents (Elt F)) (s d : (⟨S1600000, .i32⟩ : BufTy).Contents (Elt F)) :
    (⟨S100000x32, .f32⟩ : BufTy).Contents (Elt F) :=
  Host.divf
    (Host.scatterAdd scatter_S100000x32_S1600000x1_S1600000x32_1_0_0_1 (broadcastInDim S100000x32 ![] bcast_S_S100000x32 (constant S_ .f32 0x00000000#32))
      (dstIndex d) (Host.gather gather_S100000x32_S1600000x1_S1600000x32_1_0_n_n_0_1_132 y (srcIndex s)))
    (broadcastInDim S100000x32 ![0, 1] bcast_S100000x1_S100000x32_0_1 (broadcastInDim S100000x1 ![0] bcast_S100000_S100000x1_0 (degree d)))

end Cert.Sage

end
-- ==== Proof.HostSide.lean ====
/-
  What the host operations around the two kernel launches compute.

  Before the first launch the host slices the edge list into its source and target rows, aggregates the input
  features `x` over incoming edges (`meanIn64`), and reshapes the first bias to a 1 x 32 row; the arguments it only
  reads are unchanged.  Between the launches it aggregates the hidden features the first launch produced
  (`meanIn32`, from the two rows it sliced earlier) and reshapes the second bias to 1 x 1.  Each statement is for an
  arbitrary assignment `V` of contents to the buffers at the start of the stretch.
-/
import proofs.«140667_j16295105921228_1_alg».proof.Proof.Gen.KernelIdeal.Launch
import proofs.«140667_j16295105921228_1_alg».proof.Proof.Aggregate
import Idealize.ShloMosaic.Lib.StableHlo.Run

noncomputable section

namespace Cert.Sage

open Idealize.ShloMosaic Idealize.ShloMosaic.StableHlo Cert.KernelIdeal Cert.KernelIdeal.Gen

variable {F : FTy → Type} [FloatOps F]

/-- The three stretches of host operations before the first launch, run from `V`. -/
abbrev beforeFirst (V : Valuation τ sig (Elt F)) : Valuation τ sig (Elt F) :=
  after hostOps0_2 (after hostOps0_1 (after hostOps0 V))

/-- The three stretches of host operations between the launches, run from `V`. -/
abbrev betweenLaunches (V : Valuation τ sig (Elt F)) : Valuation τ sig (Elt F) :=
  after hostOps1_2 (after hostOps1_1 (after hostOps1 V))

/-! ## Before the first launch -/

set_option maxHeartbeats 4000000 in
theorem first_mean (V : Valuation τ sig (Elt F)) :
    beforeFirst V (Proc.devRef .tc main_v21)
      = meanIn64 (V (Proc.devRef .tc main_arg0)) (srcRow (V (Proc.devRef .tc main_arg1))) (dstRow (V (Proc.devRef .tc main_arg1))) := by
  simp only [beforeFirst, hostOps0, hostOps0_1, hostOps0_2]
  after_results_simp
  rfl

theorem first_src (V : Valuation τ sig (Elt F)) :
    beforeFirst V (Proc.devRef .tc main_v1) = srcRow (V (Proc.devRef .tc main_arg1)) := by
  simp only [beforeFirst, hostOps0, hostOps0_1, hostOps0_2]
  after_results
  rfl

theorem first_dst (V : Valuation τ sig (Elt F)) :
    beforeFirst V (Proc.devRef .tc main_v3) = dstRow (V (Proc.devRef .tc main_arg1)) := by
  simp only [beforeFirst, hostOps0, hostOps0_1, hostOps0_2]
  after_results
  rfl

theorem first_bias (V : Valuation τ sig (Elt F)) :
    beforeFirst V (Proc.devRef .tc main_v22) = shapeCast S1x32 (V (Proc.devRef .tc main_arg4)) Facts₀.shapeCasts_S32_S1x32 := by
  simp only [beforeFirst, hostOps0, hostOps0_1, hostOps0_2]
  after_results
  rfl

theorem first_arg0 (V : Valuation τ sig (Elt F)) :
    beforeFirst V (Proc.devRef .tc main_arg0) = V (Proc.devRef .tc main_arg0) := by
  simp only [beforeFirst, hostOps0, hostOps0_1, hostOps0_2]
  after_results

theorem first_arg2 (V : Valuation τ sig (Elt F)) :
    beforeFirst V (Proc.devRef .tc main_arg2) = V (Proc.devRef .tc main_arg2) := by
  simp only [beforeFirst, hostOps0, hostOps0_1, hostOps0_2]
  after_results

theorem first_arg3 (V : Valuation τ sig (Elt F)) :
    beforeFirst V (Proc.devRef .tc main_arg3) = V (Proc.devRef .tc main_arg3) := by
  simp only [beforeFirst, hostOps0, hostOps0_1, hostOps0_2]
  after_results

theorem first_arg5 (V : Valuation τ sig (Elt F)) :
    beforeFirst V (Proc.devRef .tc main_arg5) = V (Proc.devRef .tc main_arg5) := by
  simp only [beforeFirst, hostOps0, hostOps0_1, hostOps0_2]
  after_results

theorem first_arg6 (V : Valuation τ sig (Elt F)) :
    beforeFirst V (Proc.devRef .tc main_arg6) = V (Proc.devRef .tc main_arg6) := by
  simp only [beforeFirst, hostOps0, hostOps0_1, hostOps0_2]
  after_results

theorem first_arg7 (V : Valuation τ sig (Elt F)) :
    beforeFirst V (Proc.devRef .tc main_arg7) = V (Proc.devRef .tc main_arg7) := by
  simp only [beforeFirst, hostOps0, hostOps0_1, hostOps0_2]
  after_results

/-! ## Between the launches -/

set_option maxHeartbeats 4000000 in
theorem second_mean (V : Valuation τ sig (Elt F)) :
    betweenLaunches V (Proc.devRef .tc main_v41)
      = meanIn32 (V (Proc.devRef .tc main_v23)) (V (Proc.devRef .tc main_v1)) (V (Proc.devRef .tc main_v3)) := by
  simp only [betweenLaunches, hostOps1, hostOps1_1, hostOps1_2]
  after_results_simp
  rfl

theorem second_bias (V : Valuation τ sig (Elt F)) :
    betweenLaunches V (Proc.devRef .tc main_v42) = shapeCast S1x1 (V (Proc.devRef .tc main_arg7)) Facts₀.shapeCasts_S1_S1x1 := by
  simp only [betweenLaunches, hostOps1, hostOps1_1, hostOps1_2]
  after_results
  rfl

theorem second_hidden (V : Valuation τ sig (Elt F)) :
    betweenLaunches V (Proc.devRef .tc main_v23) = V (Proc.devRef .tc main_v23) := by
  simp only [betweenLaunches, hostOps1, hostOps1_1, hostOps1_2]
  after_results

theorem second_arg5 (V : Valuation τ sig (Elt F)) :
    betweenLaunches V (Proc.devRef .tc main_arg5) = V (Proc.devRef .tc main_arg5) := by
  simp only [betweenLaunches, hostOps1, hostOps1_1, hostOps1_2]
  after_results

theorem second_arg6 (V : Valuation τ sig (Elt F)) :
    betweenLaunches V (Proc.devRef .tc main_arg6) = V (Proc.devRef .tc main_arg6) := by
  simp only [betweenLaunches, hostOps1, hostOps1_1, hostOps1_2]
  after_results

end Cert.Sage

end
-- ==== Proof.Layer.lean ====
/-
  The two dense layers as functions of whole arrays, and the kernel bodies' arithmetic read at one element.

  Layer 1 (hidden): for node `p` and hidden unit `q`
      hidden a x Wl Wr b (p, q) = max ( (Σ_k a[p,k]·Wl[k,q] + Σ_k x[p,k]·Wr[k,q]) + b[0,q] ) 0 ,
  with `a` the aggregated neighbour features and `x` the node's own features (both 100000 x 64), the weights 64 x 32
  and the bias a 1 x 32 row.  Layer 2 (output) is the same affine form without the maximum, on 32-wide inputs and a
  single output unit.  Sums and products are those of the extended reals; no law beyond the definitions is used,
  so no finiteness is needed.

  A kernel body computes, for a block of 5000 nodes, exactly this expression of the block's rows: the two matrix
  products into a zero accumulator are the two sums over the contracted axis, the changes of float format are the
  identity on extended reals, the bias row is broadcast over the block's rows.
-/
import proofs.«140667_j16295105921228_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal Cert.KernelIdeal.Gen

/-! ## The layers -/

/-- One element of the hidden layer. -/
def hiddenAt (a x : (⟨2, ![100000, 64]⟩ : Shape).Idx → EReal) (wl wr : (⟨2, ![64, 32]⟩ : Shape).Idx → EReal)
    (b : (⟨2, ![1, 32]⟩ : Shape).Idx → EReal) (p : Fin 100000) (q : Fin 32) : EReal :=
  max (((∑ k : Fin 64, a (ix2 p k) * wl (ix2 k q)) + (∑ k : Fin 64, x (ix2 p k) * wr (ix2 k q))) + b (ix2 (0 : Fin 1) q))
    (Ideal.ofBits .f32 0x00000000#32)

/-- The hidden layer: relu of the affine combination of aggregated and own features. -/
def hidden (a x : (⟨2, ![100000, 64]⟩ : Shape).Idx → EReal) (wl wr : (⟨2, ![64, 32]⟩ : Shape).Idx → EReal)
    (b : (⟨2, ![1, 32]⟩ : Shape).Idx → EReal) : (⟨2, ![100000, 32]⟩ : Shape).Idx → EReal :=
  fun i => hiddenAt a x wl wr b (i 0) (i 1)

/-- One element of the output layer. -/
def outputAt (a h : (⟨2, ![100000, 32]⟩ : Shape).Idx → EReal) (wl wr : (⟨2, ![32, 1]⟩ : Shape).Idx → EReal)
    (b : (⟨2, ![1, 1]⟩ : Shape).Idx → EReal) (p : Fin 100000) (q : Fin 1) : EReal :=
  ((∑ k : Fin 32, a (ix2 p k) * wl (ix2 k q)) + (∑ k : Fin 32, h (ix2 p k) * wr (ix2 k q))) + b (ix2 (0 : Fin 1) q)

/-- The output layer: the affine combination of aggregated and own hidden features. -/
def output (a h : (⟨2, ![100000, 32]⟩ : Shape).Idx → EReal) (wl wr : (⟨2, ![32, 1]⟩ : Shape).Idx → EReal)
    (b : (⟨2, ![1, 1]⟩ : Shape).Idx → EReal) : (⟨2, ![100000, 1]⟩ : Shape).Idx → EReal :=
  fun i => outputAt a h wl wr b (i 0) (i 1)

/-! ## A matrix product into a zero accumulator, read at one element -/

section Products

theorem dot1_lhs0 (i : S5000x32.Idx) (c : dot_S5000x64_S64x32_S5000x32_1_0_0_1_n_n.contr.Idx) :
    (dot_S5000x64_S64x32_S5000x32_1_0_0_1_n_n.lhsIdx i c 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl

theorem dot1_rhs1 (i : S5000x32.Idx) (c : dot_S5000x64_S64x32_S5000x32_1_0_0_1_n_n.contr.Idx) :
    (dot_S5000x64_S64x32_S5000x32_1_0_0_1_n_n.rhsIdx i c 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- A 5000 x 64 by 64 x 32 product into zero: element (p, q) is the sum over the 64 contracted positions. -/
theorem product1_at (l : FVec Ideal S5000x64 .bf16) (r : FVec Ideal S64x32 .bf16) (p : Fin 5000) (q : Fin 32) :
    FloatOps.matmul dot_S5000x64_S64x32_S5000x32_1_0_0_1_n_n none l r (constant S5000x32 .f32 0x00000000#32) (ix2 p q)
      = ∑ k : Fin 64, l (ix2 p k) * r (ix2 k q) := by
  rw [Ideal.matmul_constant_zero_apply,
    ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q)
      ((contrEquiv1 dot_S5000x64_S64x32_S5000x32_1_0_0_1_n_n 64 rfl rfl).symm k) = ix2 p k :=
    funext fun a => Fin.ext (by
      match a with
      | ⟨0, _⟩ => exact dot1_lhs0 _ _
      | ⟨1, _⟩ => exact (dot_S5000x64_S64x32_S5000x32_1_0_0_1_n_n.lhsIdx_val_of_single rfl _ _).trans hk)
  have er : dot_S5000x64_S64x32_S5000x32_1_0_0_1_n_n.rhsIdx (ix2 p q)
      ((contrEquiv1 dot_S5000x64_S64x32_S5000x32_1_0_0_1_n_n 64 rfl rfl).symm k) = ix2 k q :=
    funext fun a => Fin.ext (by
      match a with
      | ⟨0, _⟩ => exact (dot_S5000x64_S64x32_S5000x32_1_0_0_1_n_n.rhsIdx_val_of_single rfl _ _).trans hk
      | ⟨1, _⟩ => exact dot1_rhs1 _ _)
  rw [el, er]

theorem dot2_lhs0 (i : S5000x1.Idx) (c : dot_S5000x32_S32x1_S5000x1_1_0_0_1_n_n.contr.Idx) :
    (dot_S5000x32_S32x1_S5000x1_1_0_0_1_n_n.lhsIdx i c 0).val = (i 0).val := by
  unfold DotDims.lhsIdx
  rw [dif_neg (show ¬(0 : Fin S5000x32.rank) ∈ dot_S5000x32_S32x1_S5000x1_1_0_0_1_n_n.lhsBatch by decide),
    dif_pos (show (0 : Fin S5000x32.rank) ∈ dot_S5000x32_S32x1_S5000x1_1_0_0_1_n_n.lhsNonContracting by decide)]
  rfl

theorem dot2_rhs1 (i : S5000x1.Idx) (c : dot_S5000x32_S32x1_S5000x1_1_0_0_1_n_n.contr.Idx) :
    (dot_S5000x32_S32x1_S5000x1_1_0_0_1_n_n.rhsIdx i c 1).val = (i 1).val := by
  unfold DotDims.rhsIdx
  rw [dif_neg (show ¬(1 : Fin S32x1.rank) ∈ dot_S5000x32_S32x1_S5000x1_1_0_0_1_n_n.rhsBatch by decide),
    dif_pos (show (1 : Fin S32x1.rank) ∈ dot_S5000x32_S32x1_S5000x1_1_0_0_1_n_n.rhsNonContracting by decide)]
  rfl

/-- A 5000 x 32 by 32 x 1 product into zero: element (p, q) is the sum over the 32 contracted positions. -/
theorem product2_at (l : FVec Ideal S5000x32 .bf16) (r : FVec Ideal S32x1 .bf16) (p : Fin 5000) (q : Fin 1) :
    FloatOps.matmul dot_S5000x32_S32x1_S5000x1_1_0_0_1_n_n none l r (constant S5000x1 .f32 0x00000000#32) (ix2 p q)
      = ∑ k : Fin 32, l (ix2 p k) * r (ix2 k q) := by
  rw [Ideal.matmul_constant_zero_apply,
    ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q)
      ((contrEquiv1 dot_S5000x32_S32x1_S5000x1_1_0_0_1_n_n 32 rfl rfl).symm k) = ix2 p k :=
    funext fun a => Fin.ext (by
      match a with
      | ⟨0, _⟩ => exact dot2_lhs0 _ _
      | ⟨1, _⟩ => exact (dot_S5000x32_S32x1_S5000x1_1_0_0_1_n_n.lhsIdx_val_of_single rfl _ _).trans hk)
  have er : dot_S5000x32_S32x1_S5000x1_1_0_0_1_n_n.rhsIdx (ix2 p q)
      ((contrEquiv1 dot_S5000x32_S32x1_S5000x1_1_0_0_1_n_n 32 rfl rfl).symm k) = ix2 k q :=
    funext fun a => Fin.ext (by
      match a with
      | ⟨0, _⟩ => exact (dot_S5000x32_S32x1_S5000x1_1_0_0_1_n_n.rhsIdx_val_of_single rfl _ _).trans hk
      | ⟨1, _⟩ => exact dot2_rhs1 _ _)
  rw [el, er]

/-! ## The bodies' stored values at one element -/

/-- The first body's stored block at row `p`, unit `q`: the hidden layer's expression of the loaded blocks. -/
theorem body1_at (x0 x1 : Vec Ideal S5000x64 .f32) (x2 x3 : Vec Ideal S64x32 .f32) (x4 : Vec Ideal S1x32 .f32)
    (p : Fin 5000) (q : Fin 32) :
    k0_pay1 (F := Ideal) x0 x1 x2 x3 x4 (ix2 p q)
      = max (((∑ k : Fin 64, x0 (ix2 p k) * x2 (ix2 k q)) + (∑ k : Fin 64, x1 (ix2 p k) * x3 (ix2 k q))) + x4 (ix2 (0 : Fin 1) q))
          (Ideal.ofBits .f32 0x00000000#32) := by
  unfold k0_pay1
  simp only [matmul]
  rw [maximumf_apply, addf_apply, addf_apply, product1_at, product1_at, broadcastTo_1b_ab_apply]
  simp only [truncf_apply, shapeCast_self]
  rfl

/-- The second body's stored block at row `p`, unit `q`: the output layer's expression of the loaded blocks. -/
theorem body2_at (x0 x1 : Vec Ideal S5000x32 .f32) (x2 x3 : Vec Ideal S32x1 .f32) (x4 : Vec Ideal S1x1 .f32)
    (p : Fin 5000) (q : Fin 1) :
    k1_pay1 (F := Ideal) x0 x1 x2 x3 x4 (ix2 p q)
      = ((∑ k : Fin 32, x0 (ix2 p k) * x2 (ix2 k q)) + (∑ k : Fin 32, x1 (ix2 p k) * x3 (ix2 k q))) + x4 (ix2 (0 : Fin 1) q) := by
  unfold k1_pay1
  simp only [matmul]
  rw [addf_apply, addf_apply, product2_at, product2_at, broadcastTo_1b_ab_apply]
  simp only [truncf_apply, shapeCast_self]

/-- A block of the hidden layer: if the loaded row blocks are rows `r` of the arrays `A`, `X` and the loaded weight and
    bias blocks are the whole arrays, the stored element (p, q) is the hidden layer at (r, q). -/
theorem hidden_block (A X : (⟨2, ![100000, 64]⟩ : Shape).Idx → EReal) (WL WR : (⟨2, ![64, 32]⟩ : Shape).Idx → EReal)
    (B : (⟨2, ![1, 32]⟩ : Shape).Idx → EReal)
    (x0 x1 : Vec Ideal S5000x64 .f32) (x2 x3 : Vec Ideal S64x32 .f32) (x4 : Vec Ideal S1x32 .f32)
    (r : Fin 100000) (p : Fin 5000) (q : Fin 32)
    (h0 : ∀ k : Fin 64, x0 (ix2 p k) = A (ix2 r k)) (h1 : ∀ k : Fin 64, x1 (ix2 p k) = X (ix2 r k))
    (h2 : ∀ k : Fin 64, x2 (ix2 k q) = WL (ix2 k q)) (h3 : ∀ k : Fin 64, x3 (ix2 k q) = WR (ix2 k q))
    (h4 : x4 (ix2 (0 : Fin 1) q) = B (ix2 (0 : Fin 1) q)) :
    k0_pay1 (F := Ideal) x0 x1 x2 x3 x4 (ix2 p q) = hidden A X WL WR B (ix2 r q) := by
  rw [body1_at]
  show _ = hiddenAt A X WL WR B r q
  unfold hiddenAt
  simp only [h0, h1, h2, h3, h4]

/-- A block of the output layer, in the same way. -/
theorem output_block (A H : (⟨2, ![100000, 32]⟩ : Shape).Idx → EReal) (WL WR : (⟨2, ![32, 1]⟩ : Shape).Idx → EReal)
    (B : (⟨2, ![1, 1]⟩ : Shape).Idx → EReal)
    (x0 x1 : Vec Ideal S5000x32 .f32) (x2 x3 : Vec Ideal S32x1 .f32) (x4 : Vec Ideal S1x1 .f32)
    (r : Fin 100000) (p : Fin 5000) (q : Fin 1)
    (h0 : ∀ k : Fin 32, x0 (ix2 p k) = A (ix2 r k)) (h1 : ∀ k : Fin 32, x1 (ix2 p k) = H (ix2 r k))
    (h2 : ∀ k : Fin 32, x2 (ix2 k q) = WL (ix2 k q)) (h3 : ∀ k : Fin 32, x3 (ix2 k q) = WR (ix2 k q))
    (h4 : x4 (ix2 (0 : Fin 1) q) = B (ix2 (0 : Fin 1) q)) :
    k1_pay1 (F := Ideal) x0 x1 x2 x3 x4 (ix2 p q) = output A H WL WR B (ix2 r q) := by
  rw [body2_at]
  show _ = outputAt A H WL WR B r q
  unfold outputAt
  simp only [h0, h1, h2, h3, h4]

end Products

end Cert.Sage

end
-- ==== Proof.Region1.lean ====
/-
  The first launch: what the hidden-feature array holds when the launch ends.

  The launch runs the first body at 20 grid points.  At point `t` the body sees rows 5000·t … 5000·t + 4999 of the
  aggregated features and of the node features, the whole of both weight matrices and of the bias row, and writes
  back rows 5000·t … 5000·t + 4999 of the hidden array.  Each written block is the matching block of the one
  whole-array function `hidden` of the arrays the launch found, and the 20 blocks cover all 100000 rows, so the array
  ends as `hidden` of those arrays.  Stated for arbitrary contents `V` of the buffers when the launch starts.
-/
import proofs.«140667_j16295105921228_1_alg».proof.Proof.Gen.KernelIdeal.Frame
import proofs.«140667_j16295105921228_1_alg».proof.Proof.Layer
import Idealize.ShloMosaic.Lib.Pipeline.Value

set_option maxRecDepth 16384

noncomputable section

namespace Cert.Sage

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The block index of every window at point `t`: the three row-blocked windows are at block row `t`, the weights and
    the bias at block (0, 0). -/
theorem first_index (t : Fin cfg0.N) :
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0) t

/-- The aggregated-feature block at point `t` is rows 5000·t … of the aggregated-feature array. -/
theorem first_rows_agg (c : Dev nD) (t : Fin cfg0.N) (p : Fin 5000) (k : Fin 64) (r : Fin 100000) (hr : r.val = t.val * 5000 + p.val) :
    (iblk0 V c 0 t : Vec Ideal S5000x64 .f32) (ix2 p k) = V c main_v21 (ix2 r k) := by
  obtain ⟨e0, e1, -⟩ := first_index t
  show V c main_v21 (((cfg0.win 0).blk t).view.emb (ix2 p k)) = V c main_v21 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The node-feature block at point `t` is rows 5000·t … of the node-feature array. -/
theorem first_rows_self (c : Dev nD) (t : Fin cfg0.N) (p : Fin 5000) (k : Fin 64) (r : Fin 100000) (hr : r.val = t.val * 5000 + p.val) :
    (iblk0 V c 1 t : Vec Ideal S5000x64 .f32) (ix2 p k) = V c main_arg0 (ix2 r k) := by
  obtain ⟨-, -, e0, e1, -⟩ := first_index t
  show V c main_arg0 (((cfg0.win 1).blk t).view.emb (ix2 p k)) = V c main_arg0 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The neighbour-weight block at every point is the whole weight matrix. -/
theorem first_weights_nb (c : Dev nD) (t : Fin cfg0.N) (k : Fin 64) (q : Fin 32) :
    (iblk0 V c 2 t : Vec Ideal S64x32 .f32) (ix2 k q) = V c main_arg2 (ix2 k q) := by
  obtain ⟨-, -, -, -, e0, e1, -⟩ := first_index t
  show V c main_arg2 (((cfg0.win 2).blk t).view.emb (ix2 k q)) = V c main_arg2 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 32 + 1 * q.val = q.val; omega

/-- The own-weight block at every point is the whole weight matrix. -/
theorem first_weights_self (c : Dev nD) (t : Fin cfg0.N) (k : Fin 64) (q : Fin 32) :
    (iblk0 V c 3 t : Vec Ideal S64x32 .f32) (ix2 k q) = V c main_arg3 (ix2 k q) := by
  obtain ⟨-, -, -, -, -, -, e0, e1, -⟩ := first_index t
  show V c main_arg3 (((cfg0.win 3).blk t).view.emb (ix2 k q)) = V c main_arg3 (ix2 k q)
  refine congrArg _ (funext fun a => Fin.ext ?_)
  match a with
  | ⟨0, _⟩ => show win0_3.index t (0 : Fin 2) * 64 + 1 * k.val = k.val; omega
  | ⟨1, _⟩ => show win0_3.index t (1 : Fin 2) * 32 + 1 * q.val = q.val; omega

/-- The bias block at every point is the whole bias row. -/
theorem first_bias_row (c : Dev nD) (t : Fin cfg0.N) (q : Fin 32) :
    (iblk0 V c 4 t : Vec Ideal S1x32 .f32) (ix2 (0 : Fin 1) q) = V c main_v22 (ix2 (0 : Fin 1) q) := by
  obtain ⟨-, -, -, -, -, -, -, -, e0, e1, -⟩ := first_index t
  show V c main_v22 (((cfg0.win 4).blk t).view.emb (ix2 (0 : Fin 1) q)) = V c main_v22 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 32 + 1 * q.val = q.val; omega

/-- What point `t` writes back is block `t` of the hidden layer of the arrays the launch found. -/
theorem first_flushed (c : Dev nD) (t : Fin cfg0.N) :
    (dat0 V c).flushed 5 t = ((cfg0.win 5).blk t).view.read (Elt Ideal)
      (hidden (V c main_v21) (V c main_arg0) (V c main_arg2) (V c main_arg3) (V c main_v22)) := by
  show (cfg0.win 5).cut (grid0.coords t) ((dat0 V c).after 5 t) = _
  rw [after0_5]
  unfold out0_5
  rw [View.canon_unit_zero zeroOffsets]
  simp only [View.ld_unit_zero (S := S5000x64) zeroOffsets, View.ld_unit_zero (S := S64x32) zeroOffsets,
    View.ld_unit_zero (S := S1x32) zeroOffsets]
  funext j
  obtain ⟨p, q, rfl⟩ : ∃ (p : Fin 5000) (q : Fin 32), j = ix2 p q := ⟨j 0, j 1, eq_ix2 j⟩
  obtain ⟨-, -, -, -, -, -, -, -, -, -, e0, e1⟩ := first_index t
  have hN : cfg0.N = 20 := N_0
  have ht : t.val < 20 := hN ▸ t.isLt
  obtain ⟨r, hr⟩ : ∃ r : Fin 100000, r.val = t.val * 5000 + p.val := ⟨⟨t.val * 5000 + p.val, by have := p.isLt; omega⟩, rfl⟩
  have hi : ((cfg0.win 5).blk t).view.emb (ix2 p q) = ix2 r q := funext fun a => Fin.ext (by
    match a with
    | ⟨0, _⟩ => show win0_5.index t (0 : Fin 2) * 5000 + 1 * p.val = r.val; omega
    | ⟨1, _⟩ => show win0_5.index t (1 : Fin 2) * 32 + 1 * q.val = q.val; omega)
  show k0_pay1 (F := Ideal) (iblk0 V c 0 t) (iblk0 V c 1 t) (iblk0 V c 2 t) (iblk0 V c 3 t) (iblk0 V c 4 t) (ix2 p q)
    = hidden (V c main_v21) (V c main_arg0) (V c main_arg2) (V c main_arg3) (V c main_v22) (((cfg0.win 5).blk t).view.emb (ix2 p q))
  rw [hi]
  exact hidden_block (V c main_v21) (V c main_arg0) (V c main_arg2) (V c main_arg3) (V c main_v22)
    (iblk0 V c 0 t) (iblk0 V c 1 t) (iblk0 V c 2 t) (iblk0 V c 3 t) (iblk0 V c 4 t) r p q
    (fun k => first_rows_agg V c t p k r hr) (fun k => first_rows_self V c t p k r hr)
    (fun k => first_weights_nb V c t k q) (fun k => first_weights_self V c t k q) (first_bias_row V c t q)

/-- An index of the hidden array lies in point `t`'s block iff each coordinate lies in the block's range. -/
theorem first_mem (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v23).slice (win0_5.rect t)).set ↔ _
  rw [View.set_slice_whole, Rect.mem_set_unit]
  exact Iff.rfl

/-- Every row of the hidden array is written back by the point that holds it: row `r` by point `r / 5000`. -/
theorem first_cover (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := first_index t
  refine ⟨t, flush0_5 t, ?_⟩
  rw [first_mem]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- When the first launch ends the hidden array is the hidden layer of the arrays the launch found. -/
theorem first_result (c : Dev nD) :
    (dat0 V c).arrAt 5 cfg0.N = hidden (V c main_v21) (V c main_arg0) (V c main_arg2) (V c main_arg3) (V c main_v22) :=
  (dat0 V c).arrAt_eq_of_cover 5 _ (fun t _ => first_flushed V c t) first_cover

end Cert.Sage

end
-- ==== Proof.Region2.lean ====
/-
  The second launch: what the result array holds when the launch ends.

  As in the first launch, 20 grid points; at point `t` the body sees rows 5000·t … 5000·t + 4999 of the aggregated
  hidden features and of the hidden features, the whole of both 32 x 1 weight columns and of the 1 x 1 bias, and
  writes back rows 5000·t … 5000·t + 4999 of the result.  Each written block is the matching block of `output` of
  the arrays the launch found, and the blocks cover all rows.  Stated for arbitrary entry contents `V`.
-/
import proofs.«140667_j16295105921228_1_alg».proof.Proof.Gen.KernelIdeal.Frame
import proofs.«140667_j16295105921228_1_alg».proof.Proof.Layer
import Idealize.ShloMosaic.Lib.Pipeline.Value

set_option maxRecDepth 16384

noncomputable section

namespace Cert.Sage

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem zeroOffsets' : (![0, 0] : Fin 2 → Nat) = fun _ => 0 := funext fun a => by fin_cases a <;> rfl

/-- The block index of every window at point `t`: the three row-blocked windows are at block row `t`, the weights and
    the bias at block (0, 0). -/
theorem second_index (t : Fin cfg1.N) :
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0) t

/-- The aggregated-hidden-feature block at point `t` is rows 5000·t … of that array. -/
theorem second_rows_agg (c : Dev nD) (t : Fin cfg1.N) (p : Fin 5000) (k : Fin 32) (r : Fin 100000) (hr : r.val = t.val * 5000 + p.val) :
    (iblk1 V c 0 t : Vec Ideal S5000x32 .f32) (ix2 p k) = V c main_v41 (ix2 r k) := by
  obtain ⟨e0, e1, -⟩ := second_index t
  show V c main_v41 (((cfg1.win 0).blk t).view.emb (ix2 p k)) = V c main_v41 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 32 + 1 * k.val = k.val; omega

/-- The hidden-feature block at point `t` is rows 5000·t … of the hidden array. -/
theorem second_rows_self (c : Dev nD) (t : Fin cfg1.N) (p : Fin 5000) (k : Fin 32) (r : Fin 100000) (hr : r.val = t.val * 5000 + p.val) :
    (iblk1 V c 1 t : Vec Ideal S5000x32 .f32) (ix2 p k) = V c main_v23 (ix2 r k) := by
  obtain ⟨-, -, e0, e1, -⟩ := second_index t
  show V c main_v23 (((cfg1.win 1).blk t).view.emb (ix2 p k)) = V c main_v23 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 32 + 1 * k.val = k.val; omega

/-- The neighbour-weight block at every point is the whole weight column. -/
theorem second_weights_nb (c : Dev nD) (t : Fin cfg1.N) (k : Fin 32) (q : Fin 1) :
    (iblk1 V c 2 t : Vec Ideal S32x1 .f32) (ix2 k q) = V c main_arg5 (ix2 k q) := by
  obtain ⟨-, -, -, -, e0, e1, -⟩ := second_index t
  show V c main_arg5 (((cfg1.win 2).blk t).view.emb (ix2 k q)) = V c main_arg5 (ix2 k q)
  refine congrArg _ (funext fun a => Fin.ext ?_)
  match a with
  | ⟨0, _⟩ => show win1_2.index t (0 : Fin 2) * 32 + 1 * k.val = k.val; omega
  | ⟨1, _⟩ => show win1_2.index t (1 : Fin 2) * 1 + 1 * q.val = q.val; omega

/-- The own-weight block at every point is the whole weight column. -/
theorem second_weights_self (c : Dev nD) (t : Fin cfg1.N) (k : Fin 32) (q : Fin 1) :
    (iblk1 V c 3 t : Vec Ideal S32x1 .f32) (ix2 k q) = V c main_arg6 (ix2 k q) := by
  obtain ⟨-, -, -, -, -, -, e0, e1, -⟩ := second_index t
  show V c main_arg6 (((cfg1.win 3).blk t).view.emb (ix2 k q)) = V c main_arg6 (ix2 k q)
  refine congrArg _ (funext fun a => Fin.ext ?_)
  match a with
  | ⟨0, _⟩ => show win1_3.index t (0 : Fin 2) * 32 + 1 * k.val = k.val; omega
  | ⟨1, _⟩ => show win1_3.index t (1 : Fin 2) * 1 + 1 * q.val = q.val; omega

/-- The bias block at every point is the whole 1 x 1 bias. -/
theorem second_bias_row (c : Dev nD) (t : Fin cfg1.N) (q : Fin 1) :
    (iblk1 V c 4 t : Vec Ideal S1x1 .f32) (ix2 (0 : Fin 1) q) = V c main_v42 (ix2 (0 : Fin 1) q) := by
  obtain ⟨-, -, -, -, -, -, -, -, e0, e1, -⟩ := second_index t
  show V c main_v42 (((cfg1.win 4).blk t).view.emb (ix2 (0 : Fin 1) q)) = V c main_v42 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 1 + 1 * q.val = q.val; omega

/-- What point `t` writes back is block `t` of the output layer of the arrays the launch found. -/
theorem second_flushed (c : Dev nD) (t : Fin cfg1.N) :
    (dat1 V c).flushed 5 t = ((cfg1.win 5).blk t).view.read (Elt Ideal)
      (output (V c main_v41) (V c main_v23) (V c main_arg5) (V c main_arg6) (V c main_v42)) := by
  show (cfg1.win 5).cut (grid1.coords t) ((dat1 V c).after 5 t) = _
  rw [after1_5]
  unfold out1_5
  rw [View.canon_unit_zero zeroOffsets']
  simp only [View.ld_unit_zero (S := S5000x32) zeroOffsets', View.ld_unit_zero (S := S32x1) zeroOffsets',
    View.ld_unit_zero (S := S1x1) zeroOffsets']
  funext j
  obtain ⟨p, q, rfl⟩ : ∃ (p : Fin 5000) (q : Fin 1), j = ix2 p q := ⟨j 0, j 1, eq_ix2 j⟩
  obtain ⟨-, -, -, -, -, -, -, -, -, -, e0, e1⟩ := second_index t
  have hN : cfg1.N = 20 := N_1
  have ht : t.val < 20 := hN ▸ t.isLt
  obtain ⟨r, hr⟩ : ∃ r : Fin 100000, r.val = t.val * 5000 + p.val := ⟨⟨t.val * 5000 + p.val, by have := p.isLt; omega⟩, rfl⟩
  have hi : ((cfg1.win 5).blk t).view.emb (ix2 p q) = ix2 r q := funext fun a => Fin.ext (by
    match a with
    | ⟨0, _⟩ => show win1_5.index t (0 : Fin 2) * 5000 + 1 * p.val = r.val; omega
    | ⟨1, _⟩ => show win1_5.index t (1 : Fin 2) * 1 + 1 * q.val = q.val; omega)
  show k1_pay1 (F := Ideal) (iblk1 V c 0 t) (iblk1 V c 1 t) (iblk1 V c 2 t) (iblk1 V c 3 t) (iblk1 V c 4 t) (ix2 p q)
    = output (V c main_v41) (V c main_v23) (V c main_arg5) (V c main_arg6) (V c main_v42) (((cfg1.win 5).blk t).view.emb (ix2 p q))
  rw [hi]
  exact output_block (V c main_v41) (V c main_v23) (V c main_arg5) (V c main_arg6) (V c main_v42)
    (iblk1 V c 0 t) (iblk1 V c 1 t) (iblk1 V c 2 t) (iblk1 V c 3 t) (iblk1 V c 4 t) r p q
    (fun k => second_rows_agg V c t p k r hr) (fun k => second_rows_self V c t p k r hr)
    (fun k => second_weights_nb V c t k q) (fun k => second_weights_self V c t k q) (second_bias_row V c t q)

/-- An index of the result array lies in point `t`'s block iff each coordinate lies in the block's range. -/
theorem second_mem (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v43).slice (win1_5.rect t)).set ↔ _
  rw [View.set_slice_whole, Rect.mem_set_unit]
  exact Iff.rfl

/-- Every row of the result array is written back by the point that holds it: row `r` by point `r / 5000`. -/
theorem second_cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := second_index t
  refine ⟨t, flush1_5 t, ?_⟩
  rw [second_mem]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- When the second launch ends the result array is the output layer of the arrays the launch found. -/
theorem second_result (c : Dev nD) :
    (dat1 V c).arrAt 5 cfg1.N = output (V c main_v41) (V c main_v23) (V c main_arg5) (V c main_arg6) (V c main_v42) :=
  (dat1 V c).arrAt_eq_of_cover 5 _ (fun t _ => second_flushed V c t) second_cover

end Cert.Sage

end
-- ==== Proof.Network.lean ====
/-
  The two-layer network as one function of its eight argument arrays.

  hiddenOf  = hidden (mean over incoming edges of x) x W1l W1r b1            (100000 x 32)
  network   = output (mean over incoming edges of hiddenOf) hiddenOf W2l W2r b2   (100000 x 1)

  Both programs are shown to end with `network` of their arguments in the result array.
-/
import proofs.«140667_j16295105921228_1_alg».proof.Proof.Aggregate
import proofs.«140667_j16295105921228_1_alg».proof.Proof.Layer

noncomputable section

namespace Cert.Sage

open Idealize.ShloMosaic Cert.KernelIdeal Cert.KernelIdeal.Facts₀

/-- The hidden features of every node: layer 1 on the mean of the neighbours' input features and the node's own. -/
def hiddenOf (x : (⟨S100000x64, .f32⟩ : BufTy).Contents (Elt Ideal)) (e : (⟨S2x1600000, .i32⟩ : BufTy).Contents (Elt Ideal))
    (w1l w1r : (⟨S64x32, .f32⟩ : BufTy).Contents (Elt Ideal)) (b1 : (⟨S32, .f32⟩ : BufTy).Contents (Elt Ideal)) :
    (⟨S100000x32, .f32⟩ : BufTy).Contents (Elt Ideal) :=
  hidden (meanIn64 (F := Ideal) x (srcRow e) (dstRow e)) x w1l w1r (shapeCast S1x32 b1 shapeCasts_S32_S1x32)

/-- The network's result: layer 2 on the mean of the neighbours' hidden features and the node's own. -/
def network (x : (⟨S100000x64, .f32⟩ : BufTy).Contents (Elt Ideal)) (e : (⟨S2x1600000, .i32⟩ : BufTy).Contents (Elt Ideal))
    (w1l w1r : (⟨S64x32, .f32⟩ : BufTy).Contents (Elt Ideal)) (b1 : (⟨S32, .f32⟩ : BufTy).Contents (Elt Ideal))
    (w2l w2r : (⟨S32x1, .f32⟩ : BufTy).Contents (Elt Ideal)) (b2 : (⟨S1, .f32⟩ : BufTy).Contents (Elt Ideal)) :
    (⟨S100000x1, .f32⟩ : BufTy).Contents (Elt Ideal) :=
  output (meanIn32 (F := Ideal) (hiddenOf x e w1l w1r b1) (srcRow e) (dstRow e)) (hiddenOf x e w1l w1r b1) w2l w2r
    (shapeCast S1x1 b2 shapeCasts_S1_S1x1)

end Cert.Sage

end
-- ==== Proof.KernelValue.lean ====
/-
  The kernel program's run, with its result named, and the result's value.

  The program is a chain of segments: host operations, the first launch, host operations, the second launch.  The
  contents of every buffer at each boundary are a fold through the chain (the arrays a launch writes back replaced
  by what its grid points leave, every other buffer kept).  Every execution ends with each buffer at the last
  boundary's contents; read at the result buffer this is what the second launch leaves in its output array, and
  walking the fold back — second launch, the host's second aggregation, first launch, the host's first aggregation —
  gives `network` of the eight argument arrays.
-/
import proofs.«140667_j16295105921228_1_alg».proof.Proof.Gen.KernelIdeal.Frame
import proofs.«140667_j16295105921228_1_alg».proof.Proof.HostSide
import proofs.«140667_j16295105921228_1_alg».proof.Proof.Region1
import proofs.«140667_j16295105921228_1_alg».proof.Proof.Region2
import proofs.«140667_j16295105921228_1_alg».proof.Proof.Network

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the arguments as launched. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Run

/-! ## The value of the result, at the extended reals -/

section Value

variable (m : (ℓ : Loc nD τ sig) → Buf (Elt Ideal) ℓ) (ρ : Dev nD → PrngReg)

/-- The buffers at launch are the launch memory. -/
theorem launch_contents (c : Dev nD) (b : Ref sig .tc) :
    W0 m ρ c (Proc.devRef .tc b) = m ((c : Thread nD τ).loc b) := rfl

/-- The source row is still what the first stretch sliced when the second stretch reads it: no launch writes it. -/
theorem src_kept (c : Dev nD) : W4 m ρ c (Proc.devRef .tc main_v1) = srcRow (m ((c : Thread nD τ).loc main_arg1)) :=
  (W4_of_ne m ρ c main_v1 (by decide)).trans (first_src (W0 m ρ c))

/-- The target row likewise. -/
theorem dst_kept (c : Dev nD) : W4 m ρ c (Proc.devRef .tc main_v3) = dstRow (m ((c : Thread nD τ).loc main_arg1)) :=
  (W4_of_ne m ρ c main_v3 (by decide)).trans (first_dst (W0 m ρ c))

/-- The second layer's arguments are untouched by everything before the second launch. -/
theorem arg5_kept (c : Dev nD) : W4 m ρ c (Proc.devRef .tc main_arg5) = m ((c : Thread nD τ).loc main_arg5) :=
  (W4_of_ne m ρ c main_arg5 (by decide)).trans (first_arg5 (W0 m ρ c))
theorem arg6_kept (c : Dev nD) : W4 m ρ c (Proc.devRef .tc main_arg6) = m ((c : Thread nD τ).loc main_arg6) :=
  (W4_of_ne m ρ c main_arg6 (by decide)).trans (first_arg6 (W0 m ρ c))
theorem arg7_kept (c : Dev nD) : W4 m ρ c (Proc.devRef .tc main_arg7) = m ((c : Thread nD τ).loc main_arg7) :=
  (W4_of_ne m ρ c main_arg7 (by decide)).trans (first_arg7 (W0 m ρ c))

/-- After the first launch the hidden array holds the hidden features of the arguments. -/
theorem hidden_value (c : Dev nD) :
    W4 m ρ c (Proc.devRef .tc main_v23)
      = hiddenOf (m ((c : Thread nD τ).loc main_arg0)) (m ((c : Thread nD τ).loc main_arg1)) (m ((c : Thread nD τ).loc main_arg2))
          (m ((c : Thread nD τ).loc main_arg3)) (m ((c : Thread nD τ).loc main_arg4)) := by
  have h := (W4_arr m ρ c 5).trans (first_result (V3 m ρ) c)
  have a1 : V3 m ρ c main_v21 = meanIn64 (F := Ideal) (m ((c : Thread nD τ).loc main_arg0))
      (srcRow (m ((c : Thread nD τ).loc main_arg1))) (dstRow (m ((c : Thread nD τ).loc main_arg1))) := first_mean (W0 m ρ c)
  have a2 : V3 m ρ c main_arg0 = m ((c : Thread nD τ).loc main_arg0) := first_arg0 (W0 m ρ c)
  have a3 : V3 m ρ c main_arg2 = m ((c : Thread nD τ).loc main_arg2) := first_arg2 (W0 m ρ c)
  have a4 : V3 m ρ c main_arg3 = m ((c : Thread nD τ).loc main_arg3) := first_arg3 (W0 m ρ c)
  have a5 : V3 m ρ c main_v22 = shapeCast S1x32 (m ((c : Thread nD τ).loc main_arg4)) Facts₀.shapeCasts_S32_S1x32 := first_bias (W0 m ρ c)
  rw [a1, a2, a3, a4, a5] at h
  exact h

/-- After the second launch the result array holds `network` of the arguments. -/
theorem result_value (c : Dev nD) :
    W8 m ρ c (Proc.devRef .tc main_v43)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have h := (W8_arr m ρ c 5).trans (second_result (V7 m ρ) c)
  have a1 : V7 m ρ c main_v41 = meanIn32 (F := Ideal) (W4 m ρ c (Proc.devRef .tc main_v23)) (W4 m ρ c (Proc.devRef .tc main_v1))
      (W4 m ρ c (Proc.devRef .tc main_v3)) := second_mean (W4 m ρ c)
  have a2 : V7 m ρ c main_v23 = W4 m ρ c (Proc.devRef .tc main_v23) := second_hidden (W4 m ρ c)
  have a3 : V7 m ρ c main_arg5 = m ((c : Thread nD τ).loc main_arg5) :=
    (second_arg5 (W4 m ρ c)).trans (arg5_kept m ρ c)
  have a4 : V7 m ρ c main_arg6 = m ((c : Thread nD τ).loc main_arg6) :=
    (second_arg6 (W4 m ρ c)).trans (arg6_kept m ρ c)
  have a5 : V7 m ρ c main_v42 = shapeCast S1x1 (m ((c : Thread nD τ).loc main_arg7)) Facts₀.shapeCasts_S1_S1x1 :=
    (second_bias (W4 m ρ c)).trans (congrArg (fun z => shapeCast S1x1 z Facts₀.shapeCasts_S1_S1x1) (arg7_kept m ρ c))
  rw [a1, a2, a3, a4, a5, hidden_value m ρ c, src_kept m ρ c, dst_kept m ρ c] at h
  exact h

end Value

end Cert.Sage

end
-- ==== Proof.RefValue.lean ====
/-
  The reference program computes `network`.

  Its straight-line host program is read one operation at a time: the first aggregation is the shared chain
  `meanIn64` of the inputs; the two matrix products, the two additions and the maximum with zero are, element by
  element, the hidden layer of that aggregate; the second aggregation is the shared chain `meanIn32` of the hidden
  features; the last products and additions are the output layer.  A bias enters through a broadcast of the
  length-32 (length-1) vector, which reads the same element as the 1 x 32 (1 x 1) row the kernel is handed.
-/
import proofs.«140667_j16295105921228_1_alg».proof.Proof.Gen.ReferenceIdeal.Read
import proofs.«140667_j16295105921228_1_alg».proof.Proof.Network
import Idealize.ShloMosaic.Lib.ValueLayout

noncomputable section

namespace Cert.Sage.Ref

open Idealize.ShloMosaic Idealize.ShloMosaic.ValueIdx Cert.ReferenceIdeal Cert.ReferenceIdeal.Read

/-- The reference's first aggregate is the shared chain on the input features. -/
theorem mean1 (x0 : (⟨S100000x64, .f32⟩ : BufTy).Contents (Elt Ideal)) (x1 : (⟨S2x1600000, .i32⟩ : BufTy).Contents (Elt Ideal)) :
    val_main_v21 (F := Ideal) x0 x1 = meanIn64 (F := Ideal) x0 (srcRow x1) (dstRow x1) := rfl

/-- The reference's hidden features are the hidden layer of its first aggregate. -/
theorem hidden_eq (x0 : (⟨S100000x64, .f32⟩ : BufTy).Contents (Elt Ideal)) (x1 : (⟨S2x1600000, .i32⟩ : BufTy).Contents (Elt Ideal))
    (x2 x3 : (⟨S64x32, .f32⟩ : BufTy).Contents (Elt Ideal)) (x4 : (⟨S32, .f32⟩ : BufTy).Contents (Elt Ideal)) :
    val_main_v28 (F := Ideal) x0 x1 x2 x3 x4
      = hidden (val_main_v21 (F := Ideal) x0 x1) x0 x2 x3
          (shapeCast Cert.KernelIdeal.S1x32 x4 Cert.KernelIdeal.Facts₀.shapeCasts_S32_S1x32) := by
  funext i
  obtain ⟨p, q, rfl⟩ : ∃ (p : Fin 100000) (q : Fin 32), i = ix2 p q := ⟨i 0, i 1, eq_ix2 i⟩
  rw [val_main_v28_apply, val_main_v27_apply, val_main_v24_apply, val_main_v22_apply, val_main_v23_apply,
    val_main_v26_apply, val_main_v25_apply, val_main_call1_v0_apply, val_main_call1_cst_apply]
  have e1 : ∀ k : Fin 64, lidx_main_v22 (ix2 p q) k = ix2 p k := fun k => funext fun a => Fin.ext (by
    match a with | ⟨0, _⟩ => rfl | ⟨1, _⟩ => rfl)
  have e2 : ∀ k : Fin 64, ridx_main_v22 (ix2 p q) k = ix2 k q := fun k => funext fun a => Fin.ext (by
    match a with | ⟨0, _⟩ => rfl | ⟨1, _⟩ => rfl)
  have e3 : ∀ k : Fin 64, lidx_main_v23 (ix2 p q) k = ix2 p k := fun k => funext fun a => Fin.ext (by
    match a with | ⟨0, _⟩ => rfl | ⟨1, _⟩ => rfl)
  have e4 : ∀ k : Fin 64, ridx_main_v23 (ix2 p q) k = ix2 k q := fun k => funext fun a => Fin.ext (by
    match a with | ⟨0, _⟩ => rfl | ⟨1, _⟩ => rfl)
  have e5 : idx_main_v25 (idx_main_v26 (ix2 p q)) = ix1 q := funext fun a => Fin.ext (by
    match a with | ⟨0, _⟩ => rfl)
  simp only [e1, e2, e3, e4, e5]
  show _ = hiddenAt _ _ _ _ _ p q
  unfold hiddenAt
  rw [shapeCast_a_1a_apply]
  rfl

/-- The reference's second aggregate is the shared chain on its hidden features. -/
theorem mean2 (x0 : (⟨S100000x64, .f32⟩ : BufTy).Contents (Elt Ideal)) (x1 : (⟨S2x1600000, .i32⟩ : BufTy).Contents (Elt Ideal))
    (x2 x3 : (⟨S64x32, .f32⟩ : BufTy).Contents (Elt Ideal)) (x4 : (⟨S32, .f32⟩ : BufTy).Contents (Elt Ideal)) :
    val_main_v46 (F := Ideal) x0 x1 x2 x3 x4
      = meanIn32 (F := Ideal) (val_main_v28 (F := Ideal) x0 x1 x2 x3 x4) (srcRow x1) (dstRow x1) := rfl

/-- The reference's result is the output layer of its second aggregate and its hidden features. -/
theorem output_eq (x0 : (⟨S100000x64, .f32⟩ : BufTy).Contents (Elt Ideal)) (x1 : (⟨S2x1600000, .i32⟩ : BufTy).Contents (Elt Ideal))
    (x2 x3 : (⟨S64x32, .f32⟩ : BufTy).Contents (Elt Ideal)) (x4 : (⟨S32, .f32⟩ : BufTy).Contents (Elt Ideal))
    (x5 x6 : (⟨S32x1, .f32⟩ : BufTy).Contents (Elt Ideal)) (x7 : (⟨S1, .f32⟩ : BufTy).Contents (Elt Ideal)) :
    val_main_v52 (F := Ideal) x0 x1 x2 x3 x4 x5 x6 x7
      = output (val_main_v46 (F := Ideal) x0 x1 x2 x3 x4) (val_main_v28 (F := Ideal) x0 x1 x2 x3 x4) x5 x6
          (shapeCast Cert.KernelIdeal.S1x1 x7 Cert.KernelIdeal.Facts₀.shapeCasts_S1_S1x1) := by
  funext i
  obtain ⟨p, q, rfl⟩ : ∃ (p : Fin 100000) (q : Fin 1), i = ix2 p q := ⟨i 0, i 1, eq_ix2 i⟩
  rw [val_main_v52_apply, val_main_v49_apply, val_main_v47_apply, val_main_v48_apply, val_main_v51_apply, val_main_v50_apply]
  have e1 : ∀ k : Fin 32, lidx_main_v47 (ix2 p q) k = ix2 p k := fun k => funext fun a => Fin.ext (by
    match a with | ⟨0, _⟩ => rfl | ⟨1, _⟩ => rfl)
  have e2 : ∀ k : Fin 32, ridx_main_v47 (ix2 p q) k = ix2 k q := fun k => funext fun a => Fin.ext (by
    match a with | ⟨0, _⟩ => rfl | ⟨1, _⟩ => rfl)
  have e3 : ∀ k : Fin 32, lidx_main_v48 (ix2 p q) k = ix2 p k := fun k => funext fun a => Fin.ext (by
    match a with | ⟨0, _⟩ => rfl | ⟨1, _⟩ => rfl)
  have e4 : ∀ k : Fin 32, ridx_main_v48 (ix2 p q) k = ix2 k q := fun k => funext fun a => Fin.ext (by
    match a with | ⟨0, _⟩ => rfl | ⟨1, _⟩ => rfl)
  have e5 : idx_main_v50 (idx_main_v51 (ix2 p q)) = ix1 (0 : Fin 1) := funext fun a => Fin.ext (by
    match a with | ⟨0, _⟩ => rfl)
  have hq : q = 0 := Subsingleton.elim _ _
  simp only [e1, e2, e3, e4, e5]
  show _ = outputAt _ _ _ _ _ p q
  unfold outputAt
  rw [shapeCast_a_1a_apply, hq]
  rfl

/-- The reference's result term is `network` of its arguments. -/
theorem network_eq (x0 : (⟨S100000x64, .f32⟩ : BufTy).Contents (Elt Ideal)) (x1 : (⟨S2x1600000, .i32⟩ : BufTy).Contents (Elt Ideal))
    (x2 x3 : (⟨S64x32, .f32⟩ : BufTy).Contents (Elt Ideal)) (x4 : (⟨S32, .f32⟩ : BufTy).Contents (Elt Ideal))
    (x5 x6 : (⟨S32x1, .f32⟩ : BufTy).Contents (Elt Ideal)) (x7 : (⟨S1, .f32⟩ : BufTy).Contents (Elt Ideal)) :
    val_main_v52 (F := Ideal) x0 x1 x2 x3 x4 x5 x6 x7 = network x0 x1 x2 x3 x4 x5 x6 x7 := by
  have hh : val_main_v28 (F := Ideal) x0 x1 x2 x3 x4 = hiddenOf x0 x1 x2 x3 x4 := by
    rw [hidden_eq, mean1]; rfl
  rw [output_eq, mean2, hh]
  rfl

end Cert.Sage.Ref

end
-- ==== Proof.lean ====
/-
  A two-layer mean-aggregation graph network on 100000 nodes and 1600000 edges: the kernel program against its
  plain reference, at the extended reals.

  Both programs compute, for each layer, the mean of the neighbours' features over incoming edges on the host (the same
  chain of gather, scatter-add, clamp and division in both), and then the affine map
  `mean · Wl + own · Wr + b` (followed by a maximum with zero in the first layer).  The kernel program does the
  affine maps in two launches over 20 blocks of 5000 nodes, with matrix products into a zero accumulator and changes
  of float format that are the identity on extended reals; the reference does them with whole-array products.
  Element by element both are the same sums of products in the same order of additions, so the results agree as
  extended reals without any appeal to finiteness of the inputs.

  `network` (Proof/Network.lean) is that common function of the eight arguments.  The kernel program's run ends
  with it in the result array (Proof/KernelValue.lean, from the two launches' values in Proof/Region1.lean and
  Proof/Region2.lean and the host stretches in Proof/HostSide.lean); the reference's run ends with it too
  (Proof/RefValue.lean).  The three frame claims are the programs' runs with the value forgotten; the idealization
  rewrote nothing, so there is nothing to preserve.
-/
import proofs.«140667_j16295105921228_1_alg».proof.Defs
import proofs.«140667_j16295105921228_1_alg».proof.Proof.Gen.Kernel
import proofs.«140667_j16295105921228_1_alg».proof.Proof.Gen.Kernel.Skeleton
import proofs.«140667_j16295105921228_1_alg».proof.Proof.Gen.Kernel.Launch
import proofs.«140667_j16295105921228_1_alg».proof.Proof.Gen.Kernel.Points
import proofs.«140667_j16295105921228_1_alg».proof.Proof.Gen.Kernel.Frame
import proofs.«140667_j16295105921228_1_alg».proof.Proof.Gen.KernelIdeal
import proofs.«140667_j16295105921228_1_alg».proof.Proof.Gen.KernelIdeal.Skeleton
import proofs.«140667_j16295105921228_1_alg».proof.Proof.Gen.KernelIdeal.Launch
import proofs.«140667_j16295105921228_1_alg».proof.Proof.Gen.KernelIdeal.Points
import proofs.«140667_j16295105921228_1_alg».proof.Proof.Gen.KernelIdeal.Frame
import proofs.«140667_j16295105921228_1_alg».proof.Proof.Gen.ReferenceIdeal
import proofs.«140667_j16295105921228_1_alg».proof.Proof.Gen.ReferenceIdeal.Run
import proofs.«140667_j16295105921228_1_alg».proof.Proof.Gen.ReferenceIdeal.Read
import proofs.«140667_j16295105921228_1_alg».proof.Proof.Gen.Pre_finite_inputs
import proofs.«140667_j16295105921228_1_alg».proof.Proof.KernelValue
import proofs.«140667_j16295105921228_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `network` of the arguments in the result. -/
theorem algebraic : Cert.algebraic_KernelIdeal_ReferenceIdeal := by
  intro m ρ m' ρ' _ hagree
  refine ⟨fun c => Cert.Sage.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.result_value m ρ c), (h c).2⟩) (Cert.Sage.run_result (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v52_eq, Cert.Sage.Ref.network_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
